-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S8192x3 : Shape := ⟨2, ![8192, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_

variable [Facts]

def fn {F : FTy → Type} [FloatOps F] (main_arg0 : FVec F S16384x3 .f32) (main_arg1 : FVec F S8192x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S16384x3 : Shape := ⟨2, ![16384, 3]⟩
abbrev S8192x3 : Shape := ⟨2, ![8192, 3]⟩
abbrev S3x8192 : Shape := ⟨2, ![3, 8192]⟩
abbrev S16384 : Shape := ⟨1, ![16384]⟩
abbrev S64x1x8192 : Shape := ⟨3, ![64, 1, 8192]⟩
abbrev S256x3 : Shape := ⟨2, ![256, 3]⟩
abbrev S256 : Shape := ⟨1, ![256]⟩
abbrev S1x1x8192 : Shape := ⟨3, ![1, 1, 8192]⟩
abbrev S256x1 : Shape := ⟨2, ![256, 1]⟩
abbrev S1x8192 : Shape := ⟨2, ![1, 8192]⟩
abbrev S256x8192 : Shape := ⟨2, ![256, 8192]⟩
abbrev S8192 : Shape := ⟨1, ![8192]⟩
abbrev S_ : Shape := ⟨0, ![]⟩

abbrev nBuf : Space → Nat
  | .hbm => 21
  | .vmem => 7
  | .smem => 0
  | _ => 0

abbrev bufTy : (tb : Table) → Fin (tcTables nBuf tb) → BufTy
  | .hbm, ⟨0, _⟩ => ⟨S16384x3, .f32⟩
  | .hbm, ⟨1, _⟩ => ⟨S8192x3, .f32⟩
  | .hbm, ⟨2, _⟩ => ⟨S3x8192, .f32⟩
  | .hbm, ⟨3, _⟩ => ⟨S16384, .f32⟩
  | .hbm, ⟨4, _⟩ => ⟨S64x1x8192, .f32⟩
  | .hbm, ⟨5, _⟩ => ⟨S_, .f32⟩
  | .hbm, ⟨6, _⟩ => ⟨S1x8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S256x3, .f32⟩
  | .local _ .vmem, ⟨1, _⟩ => ⟨S256x3, .f32⟩
  | .local _ .vmem, ⟨2, _⟩ => ⟨S3x8192, .f32⟩
  | .local _ .vmem, ⟨3, _⟩ => ⟨S256, .f32⟩
  | .local _ .vmem, ⟨4, _⟩ => ⟨S256, .f32⟩
  | .local _ .vmem, ⟨5, _⟩ => ⟨S1x1x8192, .f32⟩
  | .local _ .vmem, ⟨6, _⟩ => ⟨S1x1x8192, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8192x3_S3x8192_1_0 : S8192x3.Transposes [1, 0] S3x8192
  inb_S256x3_S256x3_0_0 : ∀ a, (![0, 0] : Fin 2 → Nat) a + S256x3.size a ≤ S256x3.size a
  h_S256x3 : 0 < S256x3.numel
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  slices_S256x3_o0_0_S256x1 : S256x3.Slices ![0, 0] S256x1
  slices_S3x8192_o0_0_S1x8192 : S3x8192.Slices ![0, 0] S1x8192
  broadcasts_S256x1_S256x8192 : S256x1.Broadcasts S256x8192
  broadcasts_S1x8192_S256x8192 : S1x8192.Broadcasts S256x8192
  slices_S256x3_o0_1_S256x1 : S256x3.Slices ![0, 1] S256x1
  slices_S3x8192_o1_0_S1x8192 : S3x8192.Slices ![1, 0] S1x8192
  slices_S256x3_o0_2_S256x1 : S256x3.Slices ![0, 2] S256x1
  slices_S3x8192_o2_0_S1x8192 : S3x8192.Slices ![2, 0] S1x8192
  reduces_S256x8192_S256 : S256x8192.Reduces [1] S256
  reduces_S256x8192_S8192 : S256x8192.Reduces [0] S8192
  inb_S256_S256_0 : ∀ a, (![0] : Fin 1 → Nat) a + S256.size a ≤ S256.size a
  h_S256 : 0 < S256.numel
  shapeCasts_S8192_S1x1x8192 : S8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  reducesTo_S64x1x8192_S1x8192_d0 : S64x1x8192.ReducesTo [0] S1x8192
  h_S_ : 0 < S_.numel
  shapeCasts_S1x8192_S8192 : S1x8192.ShapeCasts S8192
  bcast_S_S8192 : S_.BroadcastsInDim S8192 (![] : Fin 0 → Fin S8192.rank)
  reducesTo_S16384_S_d0 : S16384.ReducesTo [0] S_
  reducesTo_S8192_S_d0 : S8192.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S16384x3.size a
  hwx0_0 : ∀ i : grid0.Coords, EltTy.bits .f32 = 32 ∨ (Rect.block (s := S16384x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S16384.size a
  hwx0_2 : ∀ i : grid0.Coords, EltTy.bits .f32 = 32 ∨ (Rect.block (s := S16384) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S64x1x8192.size a
  hwx0_3 : ∀ i : grid0.Coords, EltTy.bits .f32 = 32 ∨ (Rect.block (s := S64x1x8192) S1x1x8192.size (cc0_transform_3 i) (hinb0_3 i)).WholeWords (EltTy.packing .f32)

variable [Facts₀]

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x3 : Shape := ⟨2, ![16384, 3]⟩
abbrev S8192x3 : Shape := ⟨2, ![8192, 3]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S1x8192 : Shape := ⟨2, ![1, 8192]⟩
abbrev S16384x8192 : Shape := ⟨2, ![16384, 8192]⟩

abbrev nBuf : Space → Nat
  | .hbm => 36
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S8192x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x3, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S16384x8192, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  reducesTo_S8192x3_S8192_d1 : S8192x3.ReducesTo [1] S8192
  bcast_S8192_S8192x1_0 : S8192.BroadcastsInDim S8192x1 (![0] : Fin 1 → Fin S8192x1.rank)
  transposes_S8192x1_S1x8192_1_0 : S8192x1.Transposes [1, 0] S1x8192
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  reducesTo_S16384x8192_S16384_d1 : S16384x8192.ReducesTo [1] S16384
  reducesTo_S16384x8192_S8192_d0 : S16384x8192.ReducesTo [0] S8192
  reducesTo_S16384_S_d0 : S16384.ReducesTo [0] S_
  reducesTo_S8192_S_d0 : S8192.ReducesTo [0] S_
  dot_S16384x3_S8192x3_S16384x8192_1_1_0_0_n_n_wf : DotDims.WF S16384x3 S8192x3 S16384x8192 [1] [1] [0] [0] [] []

variable [Facts₀]

def dot_S16384x3_S8192x3_S16384x8192_1_1_0_0_n_n : DotDims S16384x3 S8192x3 S16384x8192 where
  lhsContracting := [1]
  rhsContracting := [1]
  lhsNonContracting := [0]
  rhsNonContracting := [0]
  lhsBatch := []
  rhsBatch := []
  wf := dot_S16384x3_S8192x3_S16384x8192_1_1_0_0_n_n_wf

class Facts : Prop extends Facts₀ where

variable [Facts]
-- ==== Proof.FiniteInputs.lean ====
/-
  The precondition says that the absolute value of every entry of both inputs is below +∞.
  Over the extended reals an entry whose absolute value max x (-x) is below ⊤ is neither ⊤ nor ⊥,
  hence it is a real number.
-/
import proofs.«123680_j42494406427162_2_alg».proof.Proof.Gen.Pre_finite_inputs
import Idealize.ShloMosaic.PureOps.Ideal
import Idealize.ShloMosaic.Lib.ValueIdx
import Idealize.ShloMosaic.Lib.ReduceAll
import Idealize.ShloMosaic.Lib.Pipeline.Value

noncomputable section

namespace Cert.Chamfer

open Idealize.ShloMosaic

/-- The word 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < (⊤ : EReal)) : ∃ r : ℝ, x = (r : EReal) := by
  have hx : x ≠ ⊤ := by
    rintro rfl
    simp at h
  have hx' : x ≠ ⊥ := by
    rintro rfl
    simp at h
  exact ⟨x.toReal, (EReal.coe_toReal hx hx').symm⟩

/-- The one-bit comparison "|x| < +∞" being 1 says that x is a real number. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- The rank-0 shape has exactly one index. -/
instance subsingleton_scalar_idx : Subsingleton Cert.Pre_finite_inputs.S_.Idx := ⟨fun a b => funext fun d => d.elim0⟩

/-- If the precondition evaluates to 1, every entry of both inputs is a real number. -/
theorem real_of_finite_inputs
    (x0 : FVec Ideal Cert.Pre_finite_inputs.S16384x3 .f32) (x1 : FVec Ideal Cert.Pre_finite_inputs.S8192x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  unfold Cert.Pre_finite_inputs.fn at h0
  dsimp only [andi] at h0
  obtain ⟨ha, hb⟩ := IntOp.andi_eq_one.1 h0
  refine ⟨fun i => ?_, fun i => ?_⟩
  · have e := Host.reduce_andi_all _ _ _ _ _ ha i
    exact real_of_cmp (x0 i) e
  · have e := Host.reduce_andi_all _ _ _ _ _ hb i
    exact real_of_cmp (x1 i) e

end Cert.Chamfer

end
-- ==== Proof.LibMinFold.lean ====
/-
  Minimum reductions read at the exact instance, as infima over the reduced axis.

  At the exact instance a float is an extended real and `minimumf` is `min`, so a kernel's
  `vector.multi_reduction <minimumf>` from `+∞` and a host's `stablehlo.reduce` by `minimum` from `+∞`, each over ONE
  axis, are at a result index `j` the infimum, over the coordinates `k` of that axis, of the operand at `j` with `k`
  inserted. Beside the two readings: a monotone map that fixes `⊤` commutes with a finite infimum, an infimum is
  monotone in its family through a choice of indices, and an infimum over `Fin (a * b)` is the infimum over the `a` blocks
  of the infima over each block's `b` members.
-/
import Idealize.ShloMosaic.PureOps.Ideal
import Idealize.ShloMosaic.PureOps.Ideal.Laws
import Idealize.ShloMosaic.PureOps.Reduce

noncomputable section

open Idealize.ShloMosaic

namespace Cert.MinFold

/-- The word `0x7F800000` denotes `+∞`, the top of the extended reals. -/
theorem ofBits_posInf : Ideal.ofBits .f32 0x7F800000#32 = (⊤ : EReal) := by
  simp [Ideal.ofBits, Ideal.ieee]

/-- A fold of `min` from `⊤` over a finite set is the set's infimum. -/
theorem fold_min_top {ι : Type} (s : Finset ι) (f : ι → EReal) : s.fold min ⊤ f = s.inf f := rfl

/-- A kernel's minimum over one axis, from `+∞`: at `j`, the infimum over that axis's coordinates. -/
theorem multiReduction_min_single {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).inf (fun k => src (h.lift j k)) := by
  rw [multiReduction_minimumf_eq_fold, h.fold_filter_drop_single]
  show (Finset.univ : Finset (Fin (s.size a))).fold min (Ideal.ofBits .f32 0x7F800000#32) (src ∘ h.lift j) = _
  rw [ofBits_posInf]
  rfl

/-- A host's minimum over one axis, from a rank-zero `+∞`: at `j`, the infimum over that axis's coordinates. -/
theorem hostReduce_min_single {s t u : Shape} {a : Fin s.rank} (x : FVec Ideal s .f32)
    (h' : s.ReducesTo [a] t) (h : s.Reduces [a] t) (hu : 0 < u.numel) (j : t.Idx) :
    Host.reduce (FloatOps.minimumf (F := Ideal) (φ := .f32)) x (constant (F := Ideal) u .f32 0x7F800000#32) h' hu j
      = (Finset.univ : Finset (Fin (s.size a))).inf (fun k => x (h.lift j k)) := by
  rw [Host.reduce_eq_fold_single _ x _ h' h hu j]
  show (Finset.univ : Finset (Fin (s.size a))).fold min (Ideal.ofBits .f32 0x7F800000#32) (x ∘ h.lift j) = _
  rw [ofBits_posInf]
  rfl

/-- A monotone map of the extended reals that fixes `⊤` commutes with a finite infimum. -/
theorem map_inf {ι : Type} (g : EReal → EReal) (hg : Monotone g) (htop : g ⊤ = ⊤) (s : Finset ι) (f : ι → EReal) :
    g (s.inf f) = s.inf (fun i => g (f i)) :=
  Finset.comp_inf_eq_inf_comp_of_is_total g hg htop

/-- An infimum is below another when every member of the second family has a member of the first below it. -/
theorem inf_le_inf_of_forall_exists {ι κ : Type} (s : Finset ι) (t : Finset κ) (f : ι → EReal) (g : κ → EReal)
    (h : ∀ b ∈ t, ∃ a ∈ s, f a ≤ g b) : s.inf f ≤ t.inf g :=
  Finset.le_inf fun b hb => by
    obtain ⟨a, ha, hab⟩ := h b hb
    exact (Finset.inf_le ha).trans hab

/-- The infimum over `Fin (a * b)` by blocks: over the `a` blocks, of the infimum over each block's `b` members. -/
theorem inf_blocks (a b : Nat) (F : Fin (a * b) → EReal) :
    (Finset.univ : Finset (Fin a)).inf (fun t => (Finset.univ : Finset (Fin b)).inf fun r =>
        F ⟨b * t.val + r.val, by
          have ht := t.isLt; have hr := r.isLt
          calc b * t.val + r.val < b * t.val + b := by omega
            _ = b * (t.val + 1) := by ring
            _ ≤ b * a := Nat.mul_le_mul_left b ht
            _ = a * b := Nat.mul_comm b a⟩)
      = Finset.univ.inf F := by
  apply le_antisymm
  · refine Finset.le_inf fun n _ => ?_
    have hb : 0 < b := Nat.pos_of_ne_zero (by rintro rfl; exact absurd n.isLt (by simp))
    have hq : n.val / b < a := by
      rw [Nat.div_lt_iff_lt_mul hb]; exact n.isLt
    have hr : n.val % b < b := Nat.mod_lt _ hb
    refine (Finset.inf_le (Finset.mem_univ (⟨n.val / b, hq⟩ : Fin a))).trans ?_
    refine (Finset.inf_le (Finset.mem_univ (⟨n.val % b, hr⟩ : Fin b))).trans ?_
    exact le_of_eq (congrArg F (Fin.ext (Nat.div_add_mod n.val b)))
  · refine Finset.le_inf fun t _ => Finset.le_inf fun r _ => ?_
    exact Finset.inf_le (Finset.mem_univ _)

end Cert.MinFold

end
-- ==== Proof.Distance.lean ====
/-
  The squared distance of two points of ℝ³ written the two ways the programs compute it, and the clamped square root.

  One program adds the three squared coordinate differences; the other adds the two squared norms and takes away twice
  the inner product. Over real coordinates these agree (the square of a difference expanded), which is where the
  finiteness of the inputs is used: on the extended reals the expansion fails at the infinities. The clamped root
  `x ↦ √(max x 0)` is monotone and sends `⊤` to `⊤`, so it may be taken before or after a minimum.
-/
import Idealize.ShloMosaic.PureOps.Ideal
import Idealize.ShloMosaic.PureOps.Ideal.Laws

noncomputable section

open Idealize.ShloMosaic

namespace Cert.Chamfer

/-- The word `0x40000000` denotes the real number two. -/
theorem ofBits_two : Ideal.ofBits .f32 0x40000000#32 = ((2 : ℝ) : EReal) := by
  simp [Ideal.ofBits, Ideal.ieee, -EReal.coe_mul]
  norm_num

/-- The sum of the three squared coordinate differences, in the order the kernel adds them. -/
def sqDiff (p t : Fin 3 → EReal) : EReal :=
  ((p 0 - t 0) * (p 0 - t 0) + (p 1 - t 1) * (p 1 - t 1)) + (p 2 - t 2) * (p 2 - t 2)

/-- The two squared norms (each summed from zero) less twice the inner product, as the reference computes it. -/
def sqExpand (p t : Fin 3 → EReal) : EReal :=
  ((0 + ∑ k : Fin 3, p k * p k) + (0 + ∑ k : Fin 3, t k * t k)) - ((2 : ℝ) : EReal) * ∑ k : Fin 3, p k * t k

/-- Over real coordinates the two agree: `(a - b)² = a² + b² - 2ab`, coordinate by coordinate. -/
theorem sqDiff_eq_sqExpand (p t : Fin 3 → EReal) (hp : ∀ k, ∃ r : ℝ, p k = (r : EReal)) (ht : ∀ k, ∃ r : ℝ, t k = (r : EReal)) :
    sqDiff p t = sqExpand p t := by
  obtain ⟨a0, h0⟩ := hp 0
  obtain ⟨a1, h1⟩ := hp 1
  obtain ⟨a2, h2⟩ := hp 2
  obtain ⟨b0, g0⟩ := ht 0
  obtain ⟨b1, g1⟩ := ht 1
  obtain ⟨b2, g2⟩ := ht 2
  unfold sqDiff sqExpand
  simp only [Fin.sum_univ_three, h0, h1, h2, g0, g1, g2, zero_add]
  norm_cast
  ring

/-- The square root of the nonnegative part. -/
def rootClamp (x : EReal) : EReal := Ideal.sqrt (max x 0)

theorem sqrt_le_sqrt_of_nonneg {a b : EReal} (ha : 0 ≤ a) (hab : a ≤ b) : Ideal.sqrt a ≤ Ideal.sqrt b := by
  induction a using EReal.rec with
  | bot => exact absurd ha (by simp)
  | top =>
    have hb : b = ⊤ := top_le_iff.mp hab
    subst hb; exact le_rfl
  | coe r =>
    induction b using EReal.rec with
    | bot => exact absurd hab (by simp)
    | top => simp
    | coe s =>
      have hr : (0 : ℝ) ≤ r := by exact_mod_cast ha
      have hrs : r ≤ s := by exact_mod_cast hab
      simp only [Ideal.sqrt_coe, if_neg (not_lt.mpr hr), if_neg (not_lt.mpr (hr.trans hrs))]
      exact_mod_cast Real.sqrt_le_sqrt hrs

/-- The clamped root is monotone. -/
theorem rootClamp_mono : Monotone rootClamp := fun _ _ hab =>
  sqrt_le_sqrt_of_nonneg (le_max_right _ _) (max_le_max hab le_rfl)

/-- The clamped root of `⊤` is `⊤`. -/
theorem rootClamp_top : rootClamp ⊤ = ⊤ := by
  unfold rootClamp
  rw [max_eq_left le_top]
  rfl

end Cert.Chamfer

end
-- ==== Proof.KernelBody.lean ====
/-
  The kernel body's three pure values, read at an index.

  The body holds a block of 256 pred rows (`x0`, 256 × 3) and the transposed target (`x1`, 3 × 8192). Entry (r, j) of its
  distance matrix is the sum over the three coordinates of the squared difference of row `r` of the block and column `j`
  of the transposed target. The row output at `r` is the clamped root of the minimum of that over `j`; the column output at
  `j` is the minimum of it over the block's 256 rows.
-/
import proofs.«123680_j42494406427162_2_alg».proof.Proof.Gen.KernelIdeal.Skeleton
import proofs.«123680_j42494406427162_2_alg».proof.Proof.LibMinFold
import proofs.«123680_j42494406427162_2_alg».proof.Proof.Distance
import Idealize.ShloMosaic.Lib.Pipeline.Value
import Idealize.ShloMosaic.Lib.ValueIdx

noncomputable section

open Idealize.ShloMosaic Idealize.ShloMosaic.ValueIdx

namespace Cert.Chamfer.Body

open Cert.KernelIdeal Cert.KernelIdeal.Gen Cert.Chamfer

/-- Coordinate `d` of the block's rows, spread along the 8192 lanes: at (r, j) it is the block at (r, d). -/
theorem spreadCol_apply (d : Nat) (hd : d < 3) (x0 : Vec Ideal S256x3 .f32) (hs : S256x3.Slices ![0, d] S256x1)
    (hb : S256x1.Broadcasts S256x8192) (r : Fin 256) (j : Fin 8192) :
    broadcastTo S256x8192 (extractStridedSlice S256x1 ![0, d] x0 hs) hb (ix2 r j) = x0 (ix2 r ⟨d, hd⟩) :=
  (broadcastTo_apply _ hb (ix2 r j) (ix2 r ⟨0, Nat.one_pos⟩) (fun a => by
      match a with
      | ⟨0, _⟩ => show r.val = if (256 : Nat) = 1 then 0 else r.val; rw [if_neg (by decide)]
      | ⟨1, _⟩ => show 0 = if (1 : Nat) = 1 then 0 else j.val; rw [if_pos rfl])).trans
    (extractStridedSlice_apply _ x0 hs (ix2 r ⟨0, Nat.one_pos⟩) (ix2 r ⟨d, hd⟩) (fun a => by
      match a with
      | ⟨0, _⟩ => show r.val = 0 + r.val; omega
      | ⟨1, _⟩ => show d = d + 0; omega))

/-- Coordinate `d` of the transposed target, spread down the 256 rows: at (r, j) it is the transposed target at (d, j). -/
theorem spreadRow_apply (d : Nat) (hd : d < 3) (x1 : Vec Ideal S3x8192 .f32) (hs : S3x8192.Slices ![d, 0] S1x8192)
    (hb : S1x8192.Broadcasts S256x8192) (r : Fin 256) (j : Fin 8192) :
    broadcastTo S256x8192 (extractStridedSlice S1x8192 ![d, 0] x1 hs) hb (ix2 r j) = x1 (ix2 ⟨d, hd⟩ j) :=
  (broadcastTo_apply _ hb (ix2 r j) (ix2 ⟨0, Nat.one_pos⟩ j) (fun a => by
      match a with
      | ⟨0, _⟩ => show 0 = if (1 : Nat) = 1 then 0 else r.val; rw [if_pos rfl]
      | ⟨1, _⟩ => show j.val = if (8192 : Nat) = 1 then 0 else j.val; rw [if_neg (by decide)])).trans
    (extractStridedSlice_apply _ x1 hs (ix2 ⟨0, Nat.one_pos⟩ j) (ix2 ⟨d, hd⟩ j) (fun a => by
      match a with
      | ⟨0, _⟩ => show d = d + 0; omega
      | ⟨1, _⟩ => show j.val = 0 + j.val; omega))

/-- The distance matrix's entry (r, j): the three squared coordinate differences added in order. -/
theorem pay1_apply (x0 : Vec Ideal S256x3 .f32) (x1 : Vec Ideal S3x8192 .f32) (r : Fin 256) (j : Fin 8192) :
    k0_pay1 x0 x1 (ix2 r j) = sqDiff (fun k => x0 (ix2 r k)) (fun k => x1 (ix2 k j)) := by
  have a0 := spreadCol_apply 0 (by decide) x0 slices_S256x3_o0_0_S256x1 broadcasts_S256x1_S256x8192 r j
  have a1 := spreadCol_apply 1 (by decide) x0 slices_S256x3_o0_1_S256x1 broadcasts_S256x1_S256x8192 r j
  have a2 := spreadCol_apply 2 (by decide) x0 slices_S256x3_o0_2_S256x1 broadcasts_S256x1_S256x8192 r j
  have b0 := spreadRow_apply 0 (by decide) x1 slices_S3x8192_o0_0_S1x8192 broadcasts_S1x8192_S256x8192 r j
  have b1 := spreadRow_apply 1 (by decide) x1 slices_S3x8192_o1_0_S1x8192 broadcasts_S1x8192_S256x8192 r j
  have b2 := spreadRow_apply 2 (by decide) x1 slices_S3x8192_o2_0_S1x8192 broadcasts_S1x8192_S256x8192 r j
  unfold k0_pay1 sqDiff
  simp only [shapeCast_self, addf_apply, mulf_apply, subf_apply]
  rw [a0, a1, a2, b0, b1, b2]
  rfl

/-- Inserting lane `j` into row index `r` of the 256 × 8192 matrix, and row `r` into lane index `j`. -/
theorem lift_row (r : Fin 256) (j : Fin 8192) : Gen.reduces_S256x8192_S256.lift (ix1 r) j = ix2 r j :=
  funext fun a => Fin.ext (by match a with | ⟨0, _⟩ => rfl | ⟨1, _⟩ => rfl)
theorem lift_col (j : Fin 8192) (r : Fin 256) : Gen.reduces_S256x8192_S8192.lift (ix1 j) r = ix2 r j :=
  funext fun a => Fin.ext (by match a with | ⟨0, _⟩ => rfl | ⟨1, _⟩ => rfl)

/-- The minimum along the lanes, at row `r`: the infimum over the 8192 lanes. -/
theorem rowmin_apply (src : FVec Ideal S256x8192 .f32) (r : Fin 256) :
    multiReduction .minimumf [1] S256 src 0x7F800000#32 Gen.reduces_S256x8192_S256 (.inl rfl) rfl (ix1 r)
      = (Finset.univ : Finset (Fin 8192)).inf fun j => src (ix2 r j) :=
  (MinFold.multiReduction_min_single src Gen.reduces_S256x8192_S256 (.inl rfl) rfl (ix1 r)).trans
    (Finset.inf_congr rfl fun j _ => congrArg src (lift_row r j))

/-- The minimum down the rows, at lane `j`: the infimum over the 256 rows. -/
theorem colmin_apply (src : FVec Ideal S256x8192 .f32) (j : Fin 8192) :
    multiReduction .minimumf [0] S8192 src 0x7F800000#32 Gen.reduces_S256x8192_S8192 (.inl rfl) rfl (ix1 j)
      = (Finset.univ : Finset (Fin 256)).inf fun r => src (ix2 r j) :=
  (MinFold.multiReduction_min_single src Gen.reduces_S256x8192_S8192 (.inl rfl) rfl (ix1 j)).trans
    (Finset.inf_congr rfl fun r _ => congrArg src (lift_col j r))

/-- The root of the maximum with a splat constant, read at an index. -/
theorem sqrt_max_splat_apply {s : Shape} (v : FVec Ideal s .f32) (z : Ideal .f32) (i : s.Idx) :
    sqrt (maximumf v (broadcast s z)) i = Ideal.sqrt (max (v i) z) := rfl
theorem scalar_ofBits (b : BitVec 32) : Scalar.ofBits (F := Ideal) .f32 b = Ideal.ofBits .f32 b := rfl

/-- The row output at `r`: the clamped root of the minimum over the 8192 targets. -/
theorem pay2_apply (x0 : Vec Ideal S256x3 .f32) (x1 : Vec Ideal S3x8192 .f32) (r : Fin 256) :
    k0_pay2 x0 x1 (ix1 r)
      = rootClamp ((Finset.univ : Finset (Fin 8192)).inf fun j => sqDiff (fun k => x0 (ix2 r k)) (fun k => x1 (ix2 k j))) := by
  have e : k0_pay2 x0 x1 = sqrt (maximumf
      (multiReduction .minimumf [1] S256 (k0_pay1 x0 x1) 0x7F800000#32 Gen.reduces_S256x8192_S256 (.inl rfl) rfl)
      (broadcast S256 (Scalar.ofBits (F := Ideal) .f32 0x00000000#32))) := rfl
  rw [e]
  refine (sqrt_max_splat_apply _ _ (ix1 r)).trans ?_
  rw [rowmin_apply, scalar_ofBits, Ideal.ofBits_zero_f32]
  unfold rootClamp
  exact congrArg (fun z => Ideal.sqrt (max z 0)) (Finset.inf_congr rfl fun j _ => pay1_apply x0 x1 r j)

/-- The column output at `j` (its two leading unit axes at zero): the minimum over the block's 256 rows. -/
theorem pay3_apply (x0 : Vec Ideal S256x3 .f32) (x1 : Vec Ideal S3x8192 .f32) (j : Fin 8192) :
    k0_pay3 x0 x1 (ix3 ⟨0, Nat.one_pos⟩ ⟨0, Nat.one_pos⟩ j)
      = (Finset.univ : Finset (Fin 256)).inf fun r => sqDiff (fun k => x0 (ix2 r k)) (fun k => x1 (ix2 k j)) := by
  have e : k0_pay3 x0 x1 = shapeCast S1x1x8192
      (multiReduction .minimumf [0] S8192 (k0_pay1 x0 x1) 0x7F800000#32 Gen.reduces_S256x8192_S8192 (.inl rfl) rfl)
      Gen.shapeCasts_S8192_S1x1x8192 := rfl
  rw [e]
  refine (shapeCast_apply _ Gen.shapeCasts_S8192_S1x1x8192 (ix3 ⟨0, Nat.one_pos⟩ ⟨0, Nat.one_pos⟩ j) (ix1 j) (by
    rw [Shape.rowMajor_val_one, Shape.rowMajor_val_three]
    show j.val = (0 * 1 + 0) * 8192 + j.val
    omega)).trans ?_
  rw [colmin_apply]
  exact Finset.inf_congr rfl fun r _ => pay1_apply x0 x1 r j

end Cert.Chamfer.Body

end
-- ==== Proof.KernelArrays.lean ====
/-
  The two arrays the kernel's region leaves, as functions of the argument arrays.

  Grid point `t` (of 64) reads rows `256 t … 256 t + 255` of pred and the whole transposed target, which the host line
  before the region wrote from target (entry (k, j) of the transpose is entry (j, k) of target). It writes back rows
  `256 t … 256 t + 255` of the row output — at row `n` the clamped root of the minimum over all targets of the squared
  distance — and row `t` of the column partials: at (t, 0, j) the minimum over the block's 256 pred rows of the squared
  distance to target `j`. The 64 blocks of each output tile its array, so the arrays after the run are those functions.
-/
import proofs.«123680_j42494406427162_2_alg».proof.Proof.Gen.KernelIdeal.Frame
import proofs.«123680_j42494406427162_2_alg».proof.Proof.KernelBody
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Chamfer.Arrays

open Cert.KernelIdeal Cert.KernelIdeal.Gen Cert.Chamfer

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Each output's one store covers its buffer from offset zero: what the body leaves there is the stored value. -/
theorem out2_eq (x0 : Vec Ideal S256x3 .f32) (x1 : Vec Ideal S3x8192 .f32) : out0_2 x0 x1 = k0_pay2 x0 x1 := by
  unfold out0_2
  rw [View.canon_unit_zero hz1]
  simp only [View.ld_unit_zero (S := S256x3) hz2, View.ld_unit_zero (S := S3x8192) hz2]

theorem out3_eq (x0 : Vec Ideal S256x3 .f32) (x1 : Vec Ideal S3x8192 .f32) : out0_3 x0 x1 = k0_pay3 x0 x1 := by
  unfold out0_3
  rw [View.canon_unit_zero hz3]
  simp only [View.ld_unit_zero (S := S256x3) hz2, View.ld_unit_zero (S := S3x8192) hz2]

/-- The transposed target as the region finds it: entry (k, j) is target's entry (j, k). -/
theorem V_v0_apply (c : Dev nD) (k : Fin 3) (j : Fin 8192) :
    (V m c main_v0 : S3x8192.Idx → Elt Ideal .f32) (ix2 k j)
      = (m ((c : Thread nD τ).loc main_arg1) : S8192x3.Idx → Elt Ideal .f32) (ix2 j k) := by
  have e : (V m c main_v0 : S3x8192.Idx → Elt Ideal .f32)
      = transpose S3x8192 [1, 0] (m ((c : Thread nD τ).loc main_arg1)) Gen.transposes_S8192x3_S3x8192_1_0 := by
    show StableHlo.after hostOps0 (fun b => m (c, b)) (Proc.devRef .tc main_v0) = _
    after_results <;> rfl
  rw [e]
  exact transpose_apply [1, 0] _ Gen.transposes_S8192x3_S3x8192_1_0 (ix2 k j) (ix2 j k) (fun b => match b with
    | ⟨0, _⟩ => rfl
    | ⟨1, _⟩ => rfl)

/-- The printed index maps over the grid: pred's block and the row output's block are number `t`, the column partials'
    block is row `t`, the transposed target's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = t.val
    ∧ win0_3.index t (0 : Fin 3) = t.val ∧ win0_3.index t (1 : Fin 3) = 0 ∧ win0_3.index t (2 : Fin 3) = 0 :=
  (by decide +kernel : ∀ t : Fin grid0.N, _)

/-- Pred's block at point `t` is rows `256 t … 256 t + 255` of pred. -/
theorem iblk0_apply (c : Dev nD) (t : Fin cfg0.N) (x : S256x3.Idx) (k : S16384x3.Idx)
    (hk0 : (k 0).val = 256 * t.val + (x 0).val) (hk1 : (k 1).val = (x 1).val) :
    (iblk m c 0 t : Vec Ideal S256x3 .f32) x = (m ((c : Thread nD τ).loc main_arg0) : S16384x3.Idx → Elt Ideal .f32) k := by
  obtain ⟨e0, e1, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 256 + 1 * (x 0).val = (k 0).val; rw [e0, hk0]; omega
  | ⟨1, _⟩ => show win0_0.index t 1 * 3 + 1 * (x 1).val = (k 1).val; rw [e1, hk1]; omega

/-- The transposed target's block at every point is the whole array. -/
theorem iblk1_apply (c : Dev nD) (t : Fin cfg0.N) (x : S3x8192.Idx) :
    (iblk m c 1 t : Vec Ideal S3x8192 .f32) x = (V m c main_v0 : S3x8192.Idx → Elt Ideal .f32) x := by
  obtain ⟨-, -, e0, e1, -⟩ := idx_facts t
  unfold iblk
  rw [View.read_apply]
  show V m c main_v0 _ = V m c main_v0 _
  refine congrArg _ (funext fun a => Fin.ext ?_)
  match a with
  | ⟨0, _⟩ => show win0_1.index t 0 * 3 + 1 * (x 0).val = (x 0).val; rw [e0]; omega
  | ⟨1, _⟩ => show win0_1.index t 1 * 8192 + 1 * (x 1).val = (x 1).val; rw [e1]; omega

/-- The row output as a function of pred (`A0`) and target (`A1`): at pred row `n`, the clamped root of the minimum
    over the targets of the squared distance. -/
def rowArr (A0 : S16384x3.Idx → Elt Ideal .f32) (A1 : S8192x3.Idx → Elt Ideal .f32) : S16384.Idx → Elt Ideal .f32 := fun n =>
  rootClamp ((Finset.univ : Finset (Fin 8192)).inf fun j =>
    sqDiff (fun k => A0 (ix2 (⟨(n 0).val, (n 0).isLt⟩ : Fin 16384) k)) (fun k => A1 (ix2 j k)))

theorem blockRow_lt (t : Nat) (ht : t < 64) (r : Fin 256) : 256 * t + r.val < 16384 := by
  have := r.isLt; omega

/-- The column partials: at (t, 0, j), the minimum over pred rows `256 t … 256 t + 255` of the squared distance to target `j`. -/
def colArr (A0 : S16384x3.Idx → Elt Ideal .f32) (A1 : S8192x3.Idx → Elt Ideal .f32) : S64x1x8192.Idx → Elt Ideal .f32 := fun i =>
  (Finset.univ : Finset (Fin 256)).inf fun r =>
    sqDiff (fun k => A0 (ix2 (⟨256 * (i 0).val + r.val, blockRow_lt (i 0).val (i 0).isLt r⟩ : Fin 16384) k))
      (fun k => A1 (ix2 (⟨(i 2).val, (i 2).isLt⟩ : Fin 8192) k))

/-- A point's row values, from what its two blocks hold: stated over any blocks `x0`, `x1` that are rows
    `256 T …` of `A0` and the transpose of `A1`. -/
theorem row_block (x0 : Vec Ideal S256x3 .f32) (x1 : Vec Ideal S3x8192 .f32)
    (A0 : S16384x3.Idx → Elt Ideal .f32) (A1 : S8192x3.Idx → Elt Ideal .f32) (T : Nat)
    (h0 : ∀ (r : Fin 256) (k : Fin 3) (n : Fin 16384), n.val = 256 * T + r.val → x0 (ix2 r k) = A0 (ix2 n k))
    (h1 : ∀ (k : Fin 3) (j : Fin 8192), x1 (ix2 k j) = A1 (ix2 j k))
    (y : S256.Idx) (n : S16384.Idx) (hn : (n 0).val = 256 * T + (y 0).val) :
    k0_pay2 x0 x1 y = rowArr A0 A1 n := by
  obtain ⟨r, rfl⟩ : ∃ r : Fin 256, y = ix1 r := ⟨y 0, eq_ix1 y⟩
  refine (Body.pay2_apply x0 x1 r).trans ?_
  unfold rowArr
  refine congrArg rootClamp (Finset.inf_congr rfl fun j _ => ?_)
  exact congrArg₂ sqDiff (funext fun k => h0 r k ⟨(n 0).val, (n 0).isLt⟩ hn) (funext fun k => h1 k j)

/-- A point's column values, likewise. -/
theorem col_block (x0 : Vec Ideal S256x3 .f32) (x1 : Vec Ideal S3x8192 .f32)
    (A0 : S16384x3.Idx → Elt Ideal .f32) (A1 : S8192x3.Idx → Elt Ideal .f32) (T : Nat)
    (h0 : ∀ (r : Fin 256) (k : Fin 3) (n : Fin 16384), n.val = 256 * T + r.val → x0 (ix2 r k) = A0 (ix2 n k))
    (h1 : ∀ (k : Fin 3) (j : Fin 8192), x1 (ix2 k j) = A1 (ix2 j k))
    (y : S1x1x8192.Idx) (i : S64x1x8192.Idx) (hi0 : (i 0).val = T) (hi2 : (i 2).val = (y 2).val) :
    k0_pay3 x0 x1 y = colArr A0 A1 i := by
  have h00 : (y 0).val < 1 := (y 0).isLt
  have h01 : (y 1).val < 1 := (y 1).isLt
  have hy : y = ix3 ⟨0, Nat.one_pos⟩ ⟨0, Nat.one_pos⟩ (y 2) := funext fun a => Fin.ext (by
    match a with
    | ⟨0, _⟩ => show (y 0).val = 0; omega
    | ⟨1, _⟩ => show (y 1).val = 0; omega
    | ⟨2, _⟩ => rfl)
  obtain ⟨j, rfl⟩ : ∃ j : Fin 8192, y = ix3 ⟨0, Nat.one_pos⟩ ⟨0, Nat.one_pos⟩ j := ⟨y 2, hy⟩
  refine (Body.pay3_apply x0 x1 j).trans ?_
  unfold colArr
  refine Finset.inf_congr rfl fun r _ => ?_
  refine congrArg₂ sqDiff (funext fun k => h0 r k _ (by show 256 * (i 0).val + r.val = 256 * T + r.val; rw [hi0]))
    (funext fun k => (h1 k j).trans (congrArg A1 (funext fun a => Fin.ext (by
      match a with
      | ⟨0, _⟩ => exact hi2.symm
      | ⟨1, _⟩ => rfl))))

/-- What the two input blocks at point `t` hold, in the form the two lemmas above take. -/
theorem blocks_at (c : Dev nD) (t : Fin cfg0.N) :
    (∀ (r : Fin 256) (k : Fin 3) (n : Fin 16384), n.val = 256 * t.val + r.val →
        (iblk m c 0 t : Vec Ideal S256x3 .f32) (ix2 r k) = (m ((c : Thread nD τ).loc main_arg0) : S16384x3.Idx → Elt Ideal .f32) (ix2 n k))
    ∧ (∀ (k : Fin 3) (j : Fin 8192),
        (iblk m c 1 t : Vec Ideal S3x8192 .f32) (ix2 k j) = (m ((c : Thread nD τ).loc main_arg1) : S8192x3.Idx → Elt Ideal .f32) (ix2 j k)) :=
  ⟨fun r k n hn => iblk0_apply m c t (ix2 r k) (ix2 n k) hn rfl,
   fun k j => (iblk1_apply m c t (ix2 k j)).trans (V_v0_apply m c k j)⟩

/-- Point `t` writes back block `t` of the row output. -/
theorem flushed2_eq (c : Dev nD) (t : Fin cfg0.N) :
    (dats m 0 c).flushed 2 t = ((cfg0.win 2).blk t).view.read (Elt Ideal)
      (rowArr (m ((c : Thread nD τ).loc main_arg0)) (m ((c : Thread nD τ).loc main_arg1))) := by
  show (cfg0.win 2).cut (grid0.coords t) ((dats m 0 c).after 2 t) = _
  rw [after0_2, out2_eq (iblk m c 0 t) (iblk m c 1 t)]
  obtain ⟨-, -, -, -, e2, -⟩ := idx_facts t
  obtain ⟨b0, b1⟩ := blocks_at m c t
  funext y
  refine row_block (iblk m c 0 t) (iblk m c 1 t) _ _ t.val b0 b1 y _ ?_
  show win0_2.index t 0 * 256 + 1 * (y 0).val = 256 * t.val + (y 0).val
  rw [e2]; omega

/-- Point `t` writes back row `t` of the column partials. -/
theorem flushed3_eq (c : Dev nD) (t : Fin cfg0.N) :
    (dats m 0 c).flushed 3 t = ((cfg0.win 3).blk t).view.read (Elt Ideal)
      (colArr (m ((c : Thread nD τ).loc main_arg0)) (m ((c : Thread nD τ).loc main_arg1))) := by
  show (cfg0.win 3).cut (grid0.coords t) ((dats m 0 c).after 3 t) = _
  rw [after0_3, out3_eq (iblk m c 0 t) (iblk m c 1 t)]
  obtain ⟨-, -, -, -, -, e30, e31, e32⟩ := idx_facts t
  obtain ⟨b0, b1⟩ := blocks_at m c t
  funext y
  refine col_block (iblk m c 0 t) (iblk m c 1 t) _ _ t.val b0 b1 y _ ?_ ?_
  · show win0_3.index t 0 * 1 + 1 * (y 0).val = t.val
    have : (y 0).val < 1 := (y 0).isLt
    rw [e30]; omega
  · show win0_3.index t 2 * 8192 + 1 * (y 2).val = (y 2).val
    rw [e32]; omega

/-- An index of the row output is in point `t`'s block iff it is among rows `256 t … 256 t + 255`. -/
theorem mem_blk2 (t : Fin cfg0.N) (i : S16384.Idx) :
    i ∈ ((cfg0.win 2).blk t).view.set ↔ ∀ a : Fin 1, win0_2.index t a * S256.size a ≤ (i a).val ∧ (i a).val < win0_2.index t a * S256.size a + S256.size a := by
  show i ∈ ((View.whole main_v1_0).slice (win0_2.rect t)).set ↔ _
  rw [View.set_slice_whole, Rect.mem_set_unit]
  exact Iff.rfl

/-- An index of the column partials is in point `t`'s block iff its first coordinate is `t`. -/
theorem mem_blk3 (t : Fin cfg0.N) (i : S64x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v1_1).slice (win0_3.rect t)).set ↔ _
  rw [View.set_slice_whole, Rect.mem_set_unit]
  exact Iff.rfl

/-- Grid point number `q`. -/
def pt (q : Nat) (hq : q < 64) : Fin cfg0.N := ⟨q, by rw [show cfg0.N = 64 from N_0]; exact hq⟩

/-- The row output after the run: row `n` is in the block of point `n / 256`. -/
theorem final2 (c : Dev nD) : (dats m 0 c).arrAt 2 cfg0.N
    = rowArr (m ((c : Thread nD τ).loc main_arg0)) (m ((c : Thread nD τ).loc main_arg1)) :=
  (dats m 0 c).arrAt_eq_of_cover 2 _ (fun t _ => flushed2_eq m c t) fun i => by
    have hi : (i 0).val < 16384 := (i 0).isLt
    refine ⟨pt ((i 0).val / 256) (by omega), flush0_2 _, ?_⟩
    rw [mem_blk2]
    obtain ⟨-, -, -, -, e2, -⟩ := idx_facts (pt ((i 0).val / 256) (by omega))
    intro a
    match a with
    | ⟨0, _⟩ =>
      show win0_2.index (pt ((i 0).val / 256) _) 0 * 256 ≤ (i 0).val ∧ (i 0).val < win0_2.index (pt ((i 0).val / 256) _) 0 * 256 + 256
      rw [e2]
      show (i 0).val / 256 * 256 ≤ (i 0).val ∧ (i 0).val < (i 0).val / 256 * 256 + 256
      omega

/-- The column partials after the run: entry (t, 0, j) is in the block of point `t`. -/
theorem final3 (c : Dev nD) : (dats m 0 c).arrAt 3 cfg0.N
    = colArr (m ((c : Thread nD τ).loc main_arg0)) (m ((c : Thread nD τ).loc main_arg1)) :=
  (dats m 0 c).arrAt_eq_of_cover 3 _ (fun t _ => flushed3_eq m c t) fun i => by
    have hi0 : (i 0).val < 64 := (i 0).isLt
    have hi1 : (i 1).val < 1 := (i 1).isLt
    have hi2 : (i 2).val < 8192 := (i 2).isLt
    refine ⟨pt (i 0).val hi0, flush0_3 _, ?_⟩
    rw [mem_blk3]
    obtain ⟨-, -, -, -, -, e30, e31, e32⟩ := idx_facts (pt (i 0).val hi0)
    intro a
    match a with
    | ⟨0, _⟩ =>
      show win0_3.index (pt (i 0).val hi0) 0 * 1 ≤ (i 0).val ∧ (i 0).val < win0_3.index (pt (i 0).val hi0) 0 * 1 + 1
      rw [e30]
      show (i 0).val * 1 ≤ (i 0).val ∧ (i 0).val < (i 0).val * 1 + 1
      omega
    | ⟨1, _⟩ =>
      show win0_3.index (pt (i 0).val hi0) 1 * 1 ≤ (i 1).val ∧ (i 1).val < win0_3.index (pt (i 0).val hi0) 1 * 1 + 1
      rw [e31]; omega
    | ⟨2, _⟩ =>
      show win0_3.index (pt (i 0).val hi0) 2 * 8192 ≤ (i 2).val ∧ (i 2).val < win0_3.index (pt (i 0).val hi0) 2 * 8192 + 8192
      rw [e32]; omega

end Cert.Chamfer.Arrays

end
-- ==== Proof.RefRows.lean ====
/-
  Each entry of the reference's distance matrix is the clamped root of the expanded squared distance of a row of the
  first input and a row of the second. Its row minima and its column minima, folds of the minimum from +∞ along one
  axis, are the infima of those entries over the other index.
-/
import proofs.«123680_j42494406427162_2_alg».proof.Proof.Gen.ReferenceIdeal.Read
import proofs.«123680_j42494406427162_2_alg».proof.Proof.LibMinFold
import proofs.«123680_j42494406427162_2_alg».proof.Proof.Distance
import Idealize.ShloMosaic.Lib.ValueIdx
import Idealize.ShloMosaic.Lib.Pipeline.Value

noncomputable section

namespace Cert.Chamfer.Ref

open Idealize.ShloMosaic Idealize.ShloMosaic.ValueIdx Cert.ReferenceIdeal Cert.ReferenceIdeal.Read

/-- The matrix entry at (n, j): the clamped root of the expanded squared distance of row n of the first input and
    row j of the second. -/
theorem dist_apply (x0 : (⟨S16384x3, .f32⟩ : BufTy).Contents (Elt Ideal)) (x1 : (⟨S8192x3, .f32⟩ : BufTy).Contents (Elt Ideal))
    (n : Fin 16384) (j : Fin 8192) :
    val_main_v16 (F := Ideal) x0 x1 (ix2 n j) = rootClamp (sqExpand (fun k => x0 (ix2 n k)) (fun k => x1 (ix2 j k))) := by
  -- the four ways the program reaches row n of the first input and row j of the second from the entry (n, j)
  have e1 : ∀ k : Fin 3, idx_main_v1 (idx_main_v2 (idx_main_v7 (ix2 n j))) k = ix2 n k := fun k =>
    funext fun a => Fin.ext (by match a with | ⟨0, _⟩ => rfl | ⟨1, _⟩ => rfl)
  have e2 : ∀ k : Fin 3, idx_main_v4 (idx_main_v5 (idx_main_v6 (idx_main_v8 (ix2 n j)))) k = ix2 j k := fun k =>
    funext fun a => Fin.ext (by match a with | ⟨0, _⟩ => rfl | ⟨1, _⟩ => rfl)
  have e3 : ∀ k : Fin 3, lidx_main_v10 (ix2 n j) k = ix2 n k := fun k =>
    funext fun a => Fin.ext (by match a with | ⟨0, _⟩ => rfl | ⟨1, _⟩ => rfl)
  have e4 : ∀ k : Fin 3, ridx_main_v10 (ix2 n j) k = ix2 j k := fun k =>
    funext fun a => Fin.ext (by match a with | ⟨0, _⟩ => rfl | ⟨1, _⟩ => rfl)
  simp only [val_main_v16_apply, val_main_v15_apply, val_main_v13_apply, val_main_v9_apply, val_main_v7_apply,
    val_main_v2_apply, val_main_v1_apply, val_main_v8_apply, val_main_v6_apply, val_main_v5_apply, val_main_v4_apply,
    val_main_v12_apply, val_main_v11_apply, val_main_v10_apply, val_main_v14_apply, val_main_cst_apply,
    val_main_cst_0_apply, val_main_cst_1_apply, val_main_cst_2_apply, val_main_v0_apply, val_main_v3_apply]
  simp only [e1, e2, e3, e4, Ideal.hostUnary_sqrt_def, Ideal.maximumf_def, Ideal.subf_def, Ideal.addf_def, Ideal.mulf_def,
    Ideal.ofBits_def, Ideal.ofBits_zero_f32, ofBits_two]
  rfl

/-- The minimum of row n of the matrix: the infimum over the second input's rows. -/
theorem row_apply (x0 : (⟨S16384x3, .f32⟩ : BufTy).Contents (Elt Ideal)) (x1 : (⟨S8192x3, .f32⟩ : BufTy).Contents (Elt Ideal))
    (n : Fin 16384) :
    val_main_v17 (F := Ideal) x0 x1 (ix1 n)
      = (Finset.univ : Finset (Fin 8192)).inf (fun j => rootClamp (sqExpand (fun k => x0 (ix2 n k)) (fun k => x1 (ix2 j k)))) := by
  have hR : S16384x8192.Reduces [1] S16384 := by decide
  unfold val_main_v17 val_main_cst_3
  rw [Cert.MinFold.hostReduce_min_single _ _ hR _ _]
  refine Finset.inf_congr rfl fun k _ => ?_
  have e : hR.lift (ix1 n) k = ix2 n k :=
    funext fun a => Fin.ext (by match a with | ⟨0, _⟩ => rfl | ⟨1, _⟩ => rfl)
  rw [e]
  exact dist_apply x0 x1 n k

/-- The minimum of column j of the matrix: the infimum over the first input's rows. -/
theorem col_apply (x0 : (⟨S16384x3, .f32⟩ : BufTy).Contents (Elt Ideal)) (x1 : (⟨S8192x3, .f32⟩ : BufTy).Contents (Elt Ideal))
    (j : Fin 8192) :
    val_main_v18 (F := Ideal) x0 x1 (ix1 j)
      = (Finset.univ : Finset (Fin 16384)).inf (fun n => rootClamp (sqExpand (fun k => x0 (ix2 n k)) (fun k => x1 (ix2 j k)))) := by
  have hR : S16384x8192.Reduces [0] S8192 := by decide
  unfold val_main_v18 val_main_cst_4
  rw [Cert.MinFold.hostReduce_min_single _ _ hR _ _]
  refine Finset.inf_congr rfl fun k _ => ?_
  have e : hR.lift (ix1 j) k = ix2 k j :=
    funext fun a => Fin.ext (by match a with | ⟨0, _⟩ => rfl | ⟨1, _⟩ => rfl)
  rw [e]
  exact dist_apply x0 x1 k j

end Cert.Chamfer.Ref

end
-- ==== Proof.Bridge.lean ====
/-
  The kernel's row and column vectors are the reference's.

  Row `n`: the kernel takes the clamped root of the minimum over targets of the summed squared differences; the reference
  takes the minimum over targets of the clamped root of the expanded squared distance. The clamped root is monotone and
  fixes `⊤`, so it passes through the minimum, and over real coordinates the two squared distances are one number.
  Column `j`: the kernel first takes, per block of 256 pred rows, the minimum over the block, and the host takes the
  minimum of the 64 block minima and then the clamped root; the clamped root passes through both minima, and the minimum
  over 64 blocks of the minima over 256 rows is the minimum over all 16384 rows.
-/
import proofs.«123680_j42494406427162_2_alg».proof.Proof.KernelArrays
import proofs.«123680_j42494406427162_2_alg».proof.Proof.RefRows

noncomputable section

open Idealize.ShloMosaic Idealize.ShloMosaic.ValueIdx

namespace Cert.Chamfer.Bridge

open Cert.Chamfer Cert.Chamfer.Arrays Cert.ReferenceIdeal Cert.ReferenceIdeal.Read

/-- Row `n` of the kernel's row output is row `n` of the reference's row minima. -/
theorem row_eq (x0 : (⟨S16384x3, .f32⟩ : BufTy).Contents (Elt Ideal)) (x1 : (⟨S8192x3, .f32⟩ : BufTy).Contents (Elt Ideal))
    (h0 : ∀ i, ∃ r : ℝ, x0 i = (r : EReal)) (h1 : ∀ i, ∃ r : ℝ, x1 i = (r : EReal)) (n : Fin 16384) :
    rowArr x0 x1 (ix1 n) = val_main_v17 (F := Ideal) x0 x1 (ix1 n) := by
  rw [Ref.row_apply]
  show rootClamp ((Finset.univ : Finset (Fin 8192)).inf fun j => sqDiff (fun k => x0 (ix2 n k)) (fun k => x1 (ix2 j k))) = _
  rw [MinFold.map_inf rootClamp rootClamp_mono rootClamp_top]
  refine Finset.inf_congr rfl fun j _ => congrArg rootClamp ?_
  exact sqDiff_eq_sqExpand _ _ (fun k => h0 _) (fun k => h1 _)

/-- The clamped root of the minimum over the 64 blocks of column `j` of the kernel's partials is column `j` of the
    reference's column minima. -/
theorem col_eq (x0 : (⟨S16384x3, .f32⟩ : BufTy).Contents (Elt Ideal)) (x1 : (⟨S8192x3, .f32⟩ : BufTy).Contents (Elt Ideal))
    (h0 : ∀ i, ∃ r : ℝ, x0 i = (r : EReal)) (h1 : ∀ i, ∃ r : ℝ, x1 i = (r : EReal)) (j : Fin 8192) :
    rootClamp ((Finset.univ : Finset (Fin 64)).inf fun t => colArr x0 x1 (ix3 t ⟨0, Nat.one_pos⟩ j))
      = val_main_v18 (F := Ideal) x0 x1 (ix1 j) := by
  rw [Ref.col_apply, MinFold.map_inf rootClamp rootClamp_mono rootClamp_top]
  have hblk : ∀ t : Fin 64, rootClamp (colArr x0 x1 (ix3 t ⟨0, Nat.one_pos⟩ j))
      = (Finset.univ : Finset (Fin 256)).inf fun r =>
          rootClamp (sqExpand (fun k => x0 (ix2 (⟨256 * t.val + r.val, blockRow_lt t.val t.isLt r⟩ : Fin 16384) k)) (fun k => x1 (ix2 j k))) := fun t => by
    show rootClamp ((Finset.univ : Finset (Fin 256)).inf fun r =>
      sqDiff (fun k => x0 (ix2 (⟨256 * t.val + r.val, blockRow_lt t.val t.isLt r⟩ : Fin 16384) k)) (fun k => x1 (ix2 j k))) = _
    rw [MinFold.map_inf rootClamp rootClamp_mono rootClamp_top]
    refine Finset.inf_congr rfl fun r _ => congrArg rootClamp ?_
    exact sqDiff_eq_sqExpand _ _ (fun k => h0 _) (fun k => h1 _)
  rw [Finset.inf_congr rfl fun t _ => hblk t]
  exact MinFold.inf_blocks 64 256 (fun n => rootClamp (sqExpand (fun k => x0 (ix2 n k)) (fun k => x1 (ix2 j k))))

end Cert.Chamfer.Bridge

end
-- ==== Proof.KernelRun.lean ====
/-
  The kernel program's result.

  After the region the host takes, per target, the minimum of the 64 column partials, clamps and roots it; then it
  averages the 16384 row values and the 8192 column values (each a sum from zero divided by the count) and adds the two
  averages. Read at the arrays the region leaves, that is a function of pred and target; and over real inputs it is the
  reference's result, because the two programs' row vectors agree, their column vectors agree, and the averaging lines
  are the same lines.
-/
import proofs.«123680_j42494406427162_2_alg».proof.Proof.KernelArrays
import proofs.«123680_j42494406427162_2_alg».proof.Proof.Bridge
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Chamfer.Run

open Cert.KernelIdeal Cert.KernelIdeal.Gen Cert.Chamfer Cert.Chamfer.Arrays

/-- The column vector from the column partials: per target, the clamped root of the minimum over the 64 blocks. -/
def colVec (colp : S64x1x8192.Idx → Elt Ideal .f32) : S8192.Idx → Elt Ideal .f32 :=
  Host.sqrt (maximumf
    (shapeCast S8192 (Host.reduce (FloatOps.minimumf (F := Ideal) (φ := .f32)) colp (constant (F := Ideal) S_ .f32 0x7F800000#32)
      Gen.reducesTo_S64x1x8192_S1x8192_d0 Gen.h_S_) Gen.shapeCasts_S1x8192_S8192)
    (broadcastInDim S8192 ![] Gen.bcast_S_S8192 (constant (F := Ideal) S_ .f32 0x00000000#32)))

/-- The two averages added: the sum of the row vector over 16384 plus the sum of the column vector over 8192. -/
def meanSum (row : S16384.Idx → Elt Ideal .f32) (col : S8192.Idx → Elt Ideal .f32) : S_.Idx → Elt Ideal .f32 :=
  addf
    (Host.divf (Host.reduceAdd row (constant (F := Ideal) S_ .f32 0x00000000#32) Gen.reducesTo_S16384_S_d0 Gen.h_S_)
      (constant (F := Ideal) S_ .f32 0x46800000#32))
    (Host.divf (Host.reduceAdd col (constant (F := Ideal) S_ .f32 0x00000000#32) Gen.reducesTo_S8192_S_d0 Gen.h_S_)
      (constant (F := Ideal) S_ .f32 0x46000000#32))

theorem hostSqrt_max_apply {s : Shape} (v w : FVec Ideal s .f32) (i : s.Idx) :
    Host.sqrt (maximumf v w) i = Ideal.sqrt (max (v i) (w i)) := rfl

theorem splatZero_apply (i : S8192.Idx) :
    broadcastInDim S8192 ![] Gen.bcast_S_S8192 (constant (F := Ideal) S_ .f32 0x00000000#32) i = Ideal.ofBits .f32 0x00000000#32 := rfl

/-- The column vector at target `j`. -/
theorem colVec_apply (colp : S64x1x8192.Idx → Elt Ideal .f32) (j : Fin 8192) :
    colVec colp (ix1 j) = rootClamp ((Finset.univ : Finset (Fin 64)).inf fun t => colp (ix3 t ⟨0, Nat.one_pos⟩ j)) := by
  have hR : S64x1x8192.Reduces [0] S1x8192 := by decide
  unfold colVec
  refine (hostSqrt_max_apply _ _ (ix1 j)).trans ?_
  rw [splatZero_apply, Ideal.ofBits_zero_f32]
  unfold rootClamp
  refine congrArg (fun z => Ideal.sqrt (max z 0)) ?_
  refine (shapeCast_apply _ Gen.shapeCasts_S1x8192_S8192 (ix1 j) (ix2 ⟨0, Nat.one_pos⟩ j) (by
    rw [Shape.rowMajor_val_two, Shape.rowMajor_val_one]
    show 0 * 8192 + j.val = j.val
    omega)).trans ?_
  refine (MinFold.hostReduce_min_single colp Gen.reducesTo_S64x1x8192_S1x8192_d0 hR Gen.h_S_ (ix2 ⟨0, Nat.one_pos⟩ j)).trans ?_
  refine Finset.inf_congr rfl fun t _ => congrArg colp ?_
  exact funext fun a => Fin.ext (by match a with | ⟨0, _⟩ => rfl | ⟨1, _⟩ => rfl | ⟨2, _⟩ => rfl)

variable (m : (ℓ : Loc nD τ sig) → Buf (Elt Ideal) ℓ) (ρ : Dev nD → PrngReg)

/-- The program's result as a function of pred and target. -/
def result (c : Dev nD) : Buf (Elt Ideal) ((c.tc : Thread nD τ).loc main_v11) :=
  meanSum (rowArr (m ((c : Thread nD τ).loc main_arg0)) (m ((c : Thread nD τ).loc main_arg1)))
    (colVec (colArr (m ((c : Thread nD τ).loc main_arg0)) (m ((c : Thread nD τ).loc main_arg1))))

/-- The host lines after the region, read at the two arrays the region leaves. -/
theorem tail_eq (c : Dev nD) :
    Pipeline.afterTail₀ cfgs (dats m) 0 (V0 m) [hostOps1] c main_v11 = result m c := by
  have e2 : Pipeline.withArrays (cfgs 0).spec c (V0 m c) (fun w => (dats m 0 c).arrAt w (cfgs 0).N) (Proc.devRef .tc main_v1_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v1_1)
      = (dats m 0 c).arrAt 3 cfg0.N := Pipeline.withArrays_arr spec0 launch0.win.arr_inj c _ _ 3
  unfold Pipeline.afterTail₀
  show StableHlo.after hostOps1 _ (Proc.devRef .tc main_v11) = _
  after_results
  rw [e2, e3, final2, final3]
  rfl

/-- The run of the kernel program: its result buffer ends at `result`, its arguments unchanged. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 (Pipeline.mem_restRefs_of main_v11 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

/-- Over real inputs the result is the reference's. -/
theorem result_eq_ref (x0 : (⟨Cert.ReferenceIdeal.S16384x3, .f32⟩ : BufTy).Contents (Elt Ideal))
    (x1 : (⟨Cert.ReferenceIdeal.S8192x3, .f32⟩ : BufTy).Contents (Elt Ideal))
    (h0 : ∀ i, ∃ r : ℝ, x0 i = (r : EReal)) (h1 : ∀ i, ∃ r : ℝ, x1 i = (r : EReal)) :
    meanSum (rowArr x0 x1) (colVec (colArr x0 x1)) = Cert.ReferenceIdeal.Read.val_main_v23 (F := Ideal) x0 x1 := by
  have hrow : rowArr x0 x1 = Cert.ReferenceIdeal.Read.val_main_v17 (F := Ideal) x0 x1 := funext fun n => by
    obtain ⟨n', rfl⟩ : ∃ n' : Fin 16384, n = ix1 n' := ⟨n 0, eq_ix1 n⟩
    exact Bridge.row_eq x0 x1 h0 h1 n'
  have hcol : colVec (colArr x0 x1) = Cert.ReferenceIdeal.Read.val_main_v18 (F := Ideal) x0 x1 := funext fun j => by
    obtain ⟨j', rfl⟩ : ∃ j' : Fin 8192, j = ix1 j' := ⟨j 0, eq_ix1 j⟩
    exact (colVec_apply (colArr x0 x1) j').trans (Bridge.col_eq x0 x1 h0 h1 j')
  unfold meanSum
  rw [hrow, hcol]
  rfl

end Cert.Chamfer.Run

end
-- ==== Proof.lean ====
/-
  The certificate of a Chamfer distance kernel against its jnp reference, at the exact instance.

  Both programs take pred (16384 points of ℝ³) and target (8192 points) and return
      mean over pred rows n of  min over targets j of d(n, j)  +  mean over targets j of  min over pred rows n of d(n, j),
  with d(n, j) = √(max(s(n, j), 0)) and s(n, j) the squared distance of pred row n and target row j.

  The kernel computes s as the three squared coordinate differences added, takes minima of s, and applies the clamped
  root after the minimum: on a grid of 64 points, point t holds pred rows 256 t … 256 t + 255 and the whole transposed
  target, writes the 256 row results, and writes the 8192 minima over its own rows; the host takes the minimum of the 64
  partial rows, clamps and roots, and averages. The reference computes s as |p|² + |t|² − 2 p·t, applies the clamped root
  to the whole 16384 × 8192 matrix and then takes the row and column minima and averages.

  Three facts join them. Over real coordinates the two forms of s are one number (Proof/Distance.lean); this is the only use
  of the precondition, which says that every input entry is real (Proof/FiniteInputs.lean). The clamped root is
  monotone and fixes ⊤, so it passes through a finite minimum (Proof/LibMinFold.lean, Proof/Distance.lean). And a minimum
  over 16384 rows is the minimum over 64 blocks of the minima over each block's 256 rows (Proof/LibMinFold.lean). The
  kernel's side is read off its frame run: what a grid point writes back (Proof/KernelBody.lean, Proof/KernelArrays.lean), the arrays
  after the run and the host lines after the region (Proof/KernelRun.lean); the reference's side off its run
  (Proof/RefRows.lean); Proof/Bridge.lean equates the two row vectors and the two column vectors.

  The idealization rewrote nothing, so the preservation claim is trivial; the three frame claims are the programs' runs
  with the results forgotten.
-/
import proofs.«123680_j42494406427162_2_alg».proof.Defs
import proofs.«123680_j42494406427162_2_alg».proof.Proof.Gen.Kernel
import proofs.«123680_j42494406427162_2_alg».proof.Proof.Gen.Kernel.Skeleton
import proofs.«123680_j42494406427162_2_alg».proof.Proof.Gen.Kernel.Launch
import proofs.«123680_j42494406427162_2_alg».proof.Proof.Gen.Kernel.Points
import proofs.«123680_j42494406427162_2_alg».proof.Proof.Gen.Kernel.Frame
import proofs.«123680_j42494406427162_2_alg».proof.Proof.Gen.KernelIdeal
import proofs.«123680_j42494406427162_2_alg».proof.Proof.Gen.KernelIdeal.Skeleton
import proofs.«123680_j42494406427162_2_alg».proof.Proof.Gen.KernelIdeal.Launch
import proofs.«123680_j42494406427162_2_alg».proof.Proof.Gen.KernelIdeal.Points
import proofs.«123680_j42494406427162_2_alg».proof.Proof.Gen.KernelIdeal.Frame
import proofs.«123680_j42494406427162_2_alg».proof.Proof.Gen.ReferenceIdeal
import proofs.«123680_j42494406427162_2_alg».proof.Proof.Gen.ReferenceIdeal.Run
import proofs.«123680_j42494406427162_2_alg».proof.Proof.Gen.ReferenceIdeal.Read
import proofs.«123680_j42494406427162_2_alg».proof.Proof.Gen.Pre_finite_inputs
import proofs.«123680_j42494406427162_2_alg».proof.Proof.FiniteInputs
import proofs.«123680_j42494406427162_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same number: the kernel's result as a function of its arguments (its run), the
    reference's as its last stage (its run), the arguments agreeing and, by the precondition, real. -/
theorem algebraic : Cert.algebraic_KernelIdeal_ReferenceIdeal := by
  intro m ρ m' ρ' hpre hagree
  refine ⟨fun c => Cert.Chamfer.Run.result m c, Cert.Chamfer.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Chamfer.real_of_finite_inputs _ _ (hpre c)
  rw [(hagree c).1, (hagree c).2, Cert.ReferenceIdeal.Read.val_main_v23_eq]
  exact (Cert.Chamfer.Run.result_eq_ref _ _ h0 h1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
